-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000x1 : Shape := ⟨2, ![100000, 1]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000x1 : S_.BroadcastsInDim S100000x1 (![] : Fin 0 → Fin S100000x1.rank)
  reducesTo_S100000x1_S_d0_1 : S100000x1.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S16x1 .f32) (main_arg10 : FVec F S1 .f32) (main_v33 : IVec S_ 1) : IVec S_ 1 :=
  let main_v34 : FVec F S16x1 .f32 := Host.absf main_arg9
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S16 .f32) (main_arg7 : FVec F S16x16 .f32) (main_arg8 : FVec F S16 .f32) (main_arg9 : FVec F S16x1 .f32) (main_arg10 : FVec F S1 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : FVec F S3200000 .f32) (main_arg3 : FVec F S100000x1 .f32) (main_arg4 : IVec S100000 32) (main_arg5 : FVec F S128x16 .f32) (main_arg6 : FVec F S16 .f32) (main_arg7 : FVec F S16x16 .f32) (main_arg8 : FVec F S16 .f32) (main_arg9 : FVec F S16x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000x1 : Shape := ⟨2, ![100000, 1]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S1x1 : Shape := ⟨2, ![1, 1]⟩
abbrev S10000x1 : Shape := ⟨2, ![10000, 1]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S100000x1, .f32⟩
  | .hbm, ⟨4, _⟩ => ⟨S100000, .i32⟩
  | .hbm, ⟨5, _⟩ => ⟨S128x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S100000, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x16, .f32⟩
  | .hbm, ⟨54, _⟩ => ⟨S3300000x1, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x16, .f32⟩
  | .hbm, ⟨64, _⟩ => ⟨S3300000x16, .f32⟩
  | .hbm, ⟨65, _⟩ => ⟨S3300000x16, .f32⟩
  | .hbm, ⟨66, _⟩ => ⟨S_, .f32⟩
  | .hbm, ⟨67, _⟩ => ⟨S100000x16, .f32⟩
  | .hbm, ⟨68, _⟩ => ⟨S3300000x1, .i32⟩
  | .hbm, ⟨69, _⟩ => ⟨S100000x16, .f32⟩
  | .hbm, ⟨70, _⟩ => ⟨S1x16, .f32⟩
  | .hbm, ⟨71, _⟩ => ⟨S100000x16, .f32⟩
  | .hbm, ⟨72, _⟩ => ⟨S3300000x1, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x16, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S1x1, .f32⟩
  | .hbm, ⟨90, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000x1 : Shape := ⟨2, ![100000, 1]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3300000 : Shape := ⟨1, ![3300000]⟩
abbrev S_ : Shape := ⟨0, ![]⟩
abbrev S100000x16 : Shape := ⟨2, ![100000, 16]⟩
abbrev S3300000x1 : Shape := ⟨2, ![3300000, 1]⟩
abbrev S3300000x16 : Shape := ⟨2, ![3300000, 16]⟩
abbrev S1x16 : Shape := ⟨2, ![1, 16]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000x1, .f32⟩
  | 4 => ⟨S100000, .i32⟩
  | 5 => ⟨S128x16, .f32⟩
  | 6 => ⟨S16, .f32⟩
  | 7 => ⟨S16x16, .f32⟩
  | 8 => ⟨S16, .f32⟩
  | 9 => ⟨S16x1, .f32⟩
  | 10 => ⟨S1, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S100000, .f32⟩
  | 20 => ⟨S3300000, .f32⟩
  | 21 => ⟨S100000x16, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S3300000x1, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x16, .f32⟩
  | 65 => ⟨S3300000x16, .f32⟩
  | 66 => ⟨S_, .f32⟩
  | 67 => ⟨S100000x16, .f32⟩
  | 68 => ⟨S3300000x1, .i32⟩
  | 69 => ⟨S100000x16, .f32⟩
  | 70 => ⟨S1x16, .f32⟩
  | 71 => ⟨S100000x16, .f32⟩
  | 72 => ⟨S100000x16, .f32⟩
  | 73 => ⟨S_, .f32⟩
  | 74 => ⟨S100000x16, .f32⟩
  | 75 => ⟨S100000x16, .f32⟩
  | 76 => ⟨S100000x16, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S3300000x1, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x16, .f32⟩
  | 119 => ⟨S3300000x16, .f32⟩
  | 120 => ⟨S3300000x16, .f32⟩
  | 121 => ⟨S_, .f32⟩
  | 122 => ⟨S100000x16, .f32⟩
  | 123 => ⟨S3300000x1, .i32⟩
  | 124 => ⟨S100000x16, .f32⟩
  | 125 => ⟨S1x16, .f32⟩
  | 126 => ⟨S100000x16, .f32⟩
  | 127 => ⟨S100000x16, .f32⟩
  | _ => ⟨S100000x128, .f32⟩

abbrev hbmTy0_1 (i : Nat) : BufTy := match i % 128 with
  | 0 => ⟨S_, .f32⟩
  | 1 => ⟨S100000x16, .f32⟩
  | 2 => ⟨S100000x16, .f32⟩
  | 3 => ⟨S100000x1, .f32⟩
  | 4 => ⟨S1x1, .f32⟩
  | 5 => ⟨S100000x1, .f32⟩
  | 6 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_call2_v0 : Ref sig .tc := ⟨.hbm, 86, rfl⟩
abbrev main_call2_v1 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call3_cst : Ref sig .tc := ⟨.hbm, 128, rfl⟩
abbrev main_call3_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel's run with its result named.

  The program is three grid regions among stretches of host operations. Its run ends with every unscoped buffer of
  each core at the contents of the last segment boundary: the result buffer at what the last region's write-backs
  leave of it, the argument arrays as launched. This is the launch of the segments with the result buffer read off
  the last boundary beside the arguments.
-/
import proofs.«101416_j65987877536243_1_alg».proof.Proof.Gen.KernelIdeal.Frame

set_option maxRecDepth 16384

noncomputable section

namespace Cert.GraphConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem kernel_run : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.GraphConv

end
-- ==== Proof.Spec.lean ====
/-
  The dense pieces of a two-layer graph convolution, entry by entry, at the ideal values.

  Each dense piece multiplies a tall array of node features by a small weight matrix. The first piece is the plain
  product x · W. The second and third first add one bias row to every row of the aggregated features and take the
  positive part (the maximum with the f32 word 0), then multiply; the third also adds one more bias row to the product.
  The extents are arbitrary: a product of an n×a array and an a×b array is the sum over the a shared positions.
-/
import Idealize.ShloMosaic.Lib.ValueIdx
import Idealize.ShloMosaic.PureOps.Ideal.Laws

noncomputable section

open scoped BigOperators

namespace Cert.GraphConv

open Idealize.ShloMosaic Idealize.ShloMosaic.ValueIdx

variable {n a b : ℕ}

/-- The matrix product: entry (p, o) is the sum over k of x(p, k) · w(k, o). -/
def matProd (x : FVec Ideal ⟨2, ![n, a]⟩ .f32) (w : FVec Ideal ⟨2, ![a, b]⟩ .f32) : FVec Ideal ⟨2, ![n, b]⟩ .f32 :=
  fun i => ∑ k : Fin a, x (ix2 (i 0) k) * w (ix2 k (i 1))

/-- One bias row added to every row, then the positive part: entry (p, j) is max (h(p, j) + bias(0, j)) 0. -/
def biasRelu (h : FVec Ideal ⟨2, ![n, a]⟩ .f32) (bias : FVec Ideal ⟨2, ![1, a]⟩ .f32) : FVec Ideal ⟨2, ![n, a]⟩ .f32 :=
  fun i => max (h i + bias (ix2 0 (i 1))) (Ideal.ofBits .f32 0x00000000#32)

/-- A hidden layer's dense piece: relu (h + bias) · w. -/
def hidden (h : FVec Ideal ⟨2, ![n, a]⟩ .f32) (bias : FVec Ideal ⟨2, ![1, a]⟩ .f32) (w : FVec Ideal ⟨2, ![a, b]⟩ .f32) :
    FVec Ideal ⟨2, ![n, b]⟩ .f32 :=
  matProd (biasRelu h bias) w

/-- The readout: relu (h + bias) · w + c, the row c added to every row of the product. -/
def readout (h : FVec Ideal ⟨2, ![n, a]⟩ .f32) (bias : FVec Ideal ⟨2, ![1, a]⟩ .f32) (w : FVec Ideal ⟨2, ![a, b]⟩ .f32)
    (c : FVec Ideal ⟨2, ![1, b]⟩ .f32) : FVec Ideal ⟨2, ![n, b]⟩ .f32 :=
  fun i => matProd (biasRelu h bias) w i + c (ix2 0 (i 1))

theorem matProd_apply (x : FVec Ideal ⟨2, ![n, a]⟩ .f32) (w : FVec Ideal ⟨2, ![a, b]⟩ .f32) (p : Fin n) (o : Fin b) :
    matProd x w (ix2 p o) = ∑ k : Fin a, x (ix2 p k) * w (ix2 k o) := rfl

theorem biasRelu_apply (h : FVec Ideal ⟨2, ![n, a]⟩ .f32) (bias : FVec Ideal ⟨2, ![1, a]⟩ .f32) (p : Fin n) (j : Fin a) :
    biasRelu h bias (ix2 p j) = max (h (ix2 p j) + bias (ix2 0 j)) (Ideal.ofBits .f32 0x00000000#32) := rfl

theorem hidden_apply (h : FVec Ideal ⟨2, ![n, a]⟩ .f32) (bias : FVec Ideal ⟨2, ![1, a]⟩ .f32) (w : FVec Ideal ⟨2, ![a, b]⟩ .f32)
    (p : Fin n) (o : Fin b) :
    hidden h bias w (ix2 p o)
      = ∑ k : Fin a, max (h (ix2 p k) + bias (ix2 0 k)) (Ideal.ofBits .f32 0x00000000#32) * w (ix2 k o) := rfl

theorem readout_apply (h : FVec Ideal ⟨2, ![n, a]⟩ .f32) (bias : FVec Ideal ⟨2, ![1, a]⟩ .f32) (w : FVec Ideal ⟨2, ![a, b]⟩ .f32)
    (c : FVec Ideal ⟨2, ![1, b]⟩ .f32) (p : Fin n) (o : Fin b) :
    readout h bias w c (ix2 p o)
      = (∑ k : Fin a, max (h (ix2 p k) + bias (ix2 0 k)) (Ideal.ofBits .f32 0x00000000#32) * w (ix2 k o)) + c (ix2 0 o) := rfl

end Cert.GraphConv

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Region0.lean ====
/-
  The first dense piece, x · W, as the array the first grid region leaves.

  The region walks ten grid points. At point t the body multiplies rows 10000·t … 10000·t + 9999 of the tall operand
  by the whole 128×16 weight matrix, into a zero accumulator, and the pipeline writes the 10000×16 product back as the
  same rows of the result. Rounding the operands to bf16 changes nothing at the ideal values, so entry (p, o) of the
  block is ∑ k, x(10000·t + p, k) · w(k, o): the block is the restriction of the whole product to its rows. The ten
  row blocks cover every row r (the block of row r is r / 10000), so the result array is the whole product.
-/
import proofs.«101416_j65987877536243_1_alg».proof.Proof.Gen.KernelIdeal.Frame
import proofs.«101416_j65987877536243_1_alg».proof.Proof.Spec
import proofs.«101416_j65987877536243_1_alg».proof.Proof.LibPlainDot
import Idealize.ShloMosaic.Lib.Pipeline.Value
import Idealize.ShloMosaic.Lib.ValueIdx

set_option maxRecDepth 16384

noncomputable section

open scoped BigOperators

namespace Cert.GraphConv

open Cert.KernelIdeal Cert.KernelIdeal.Gen
open Idealize.ShloMosaic Idealize.ShloMosaic.TcCoe Idealize.SL.Sem Idealize.ShloMosaic.ValueIdx
open Idealize.ShloMosaic.Pipeline (Dat)

/-- The whole-buffer rectangle's offsets are zero on both axes. -/
theorem prod_offsets_zero : (![0, 0] : Fin 2 → Nat) = fun _ => 0 := funext fun a => by fin_cases a <;> rfl

/-- The body's product at entry (p, o) of a row block: the sum over the 128 shared positions. -/
theorem prod_block_apply (x0 : Vec Ideal S10000x128 .f32) (x1 : Vec Ideal S128x16 .f32) (p : Fin 10000) (o : Fin 16) :
    k0_pay1 (F := Ideal) x0 x1 (ix2 p o) = ∑ k : Fin 128, x0 (ix2 p k) * x1 (ix2 k o) := by
  unfold k0_pay1
  exact Cert.LibPlainDot.matmul_zero_apply (n := 10000) (a := 128) (b := 16) none x0 x1 p o

variable (V : (c : Dev nD) → (b : Ref sig .tc) → Buf (Elt Ideal) ((c : Thread nD τ).loc b))

/-- The printed index maps over the ten grid points: the tall operand's and the result's blocks move down with the
    point, one block per point, and stay in column block 0; the weight matrix's block never moves. -/
theorem prod_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the tall operand's block at point t is row 10000·t + p of the array. -/
theorem prod_tall_block (c : Dev nD) (t : Fin cfg0.N) (p : Fin 10000) (k : Fin 128) (r : Fin 100000)
    (hr : r.val = 10000 * t.val + p.val) :
    (iblk0 V c 0 t : Vec Ideal S10000x128 .f32) (ix2 p k) = (V c main_arg0 : S100000x128.Idx → EReal) (ix2 r k) := by
  obtain ⟨e0, e1, -⟩ := prod_index_maps t
  show (V c main_arg0 : S100000x128.Idx → EReal) (((cfg0.win 0).blk t).view.emb (ix2 p k)) = _
  refine congrArg _ (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight matrix's block at every point is the whole matrix. -/
theorem prod_weight_block (c : Dev nD) (t : Fin cfg0.N) (k : Fin 128) (o : Fin 16) :
    (iblk0 V c 1 t : Vec Ideal S128x16 .f32) (ix2 k o) = (V c main_arg5 : S128x16.Idx → EReal) (ix2 k o) := by
  obtain ⟨-, -, e0, e1, -⟩ := prod_index_maps t
  show (V c main_arg5 : S128x16.Idx → EReal) (((cfg0.win 1).blk t).view.emb (ix2 k o)) = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 16 + 1 * o.val = o.val; rw [e1]; omega

/-- Two arrays over a 10000×16 block agree when they agree at every (p, o). -/
theorem block16_ext {α : Type} (f g : S10000x16.Idx → α) (h : ∀ (p : Fin 10000) (o : Fin 16), f (ix2 p o) = g (ix2 p o)) :
    f = g :=
  funext fun j => by rw [eq_ix2 j]; exact h (j 0) (j 1)

/-- What point t writes back is block t of the whole product: rows 10000·t … 10000·t + 9999 of x · W. -/
theorem prod_flushed (c : Dev nD) (t : Fin cfg0.N) :
    (dat0 (F := Ideal) V c).flushed 2 t
      = ((cfg0.win 2).blk t).view.read (Elt Ideal) (matProd (V c main_arg0) (V c main_arg5)) := by
  show (cfg0.win 2).cut (grid0.coords t) ((dat0 (F := Ideal) V c).after 2 t) = _
  rw [after0_2]
  unfold out0_2
  rw [View.canon_unit_zero prod_offsets_zero]
  simp only [View.ld_unit_zero (S := S10000x128) prod_offsets_zero, View.ld_unit_zero (S := S128x16) prod_offsets_zero]
  refine block16_ext _ _ fun p o => ?_
  obtain ⟨-, -, -, -, e0, e1⟩ := prod_index_maps t
  have hN : cfg0.N = 10 := N_0
  have ht : t.val < 10 := hN ▸ t.isLt
  have hrow : 10000 * t.val + p.val < 100000 := by have := p.isLt; omega
  show k0_pay1 (F := Ideal) (iblk0 V c 0 t) (iblk0 V c 1 t) (ix2 p o)
    = matProd (V c main_arg0) (V c main_arg5) (((cfg0.win 2).blk t).view.emb (ix2 p o))
  have hemb : ((cfg0.win 2).blk t).view.emb (ix2 p o) = (ix2 ⟨10000 * t.val + p.val, hrow⟩ o : S100000x16.Idx) := by
    refine funext fun a => Fin.ext ?_
    match a with
    | ⟨0, _⟩ => show win0_2.index t (0 : Fin 2) * 10000 + 1 * p.val = 10000 * t.val + p.val; rw [e0]; omega
    | ⟨1, _⟩ => show win0_2.index t (1 : Fin 2) * 16 + 1 * o.val = o.val; rw [e1]; omega
  rw [hemb, matProd_apply]
  refine (prod_block_apply (iblk0 V c 0 t) (iblk0 V c 1 t) p o).trans ?_
  refine Finset.sum_congr rfl fun k _ => ?_
  rw [prod_tall_block V c t p k ⟨10000 * t.val + p.val, hrow⟩ rfl, prod_weight_block V c t k o]

/-- A row of the result is in point t's block iff it is one of rows 10000·t … 10000·t + 9999 (and its column is one of
    the block's 16). -/
theorem prod_mem_block (t : Fin cfg0.N) (i : S100000x16.Idx) :
    i ∈ ((cfg0.win 2).blk t).view.set
      ↔ ∀ a : Fin 2, win0_2.index t a * S10000x16.size a ≤ (i a).val
          ∧ (i a).val < win0_2.index t a * S10000x16.size a + S10000x16.size a := by
  show i ∈ ((View.whole main_v32).slice (win0_2.rect t)).set ↔ _
  rw [View.set_slice_whole, Rect.mem_set_unit]
  exact Iff.rfl

/-- Every entry of the result is written back by some point: row r by point r / 10000. -/
theorem prod_blocks_cover (i : S100000x16.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 16 := (i 1).isLt
  have hq : (i 0).val / 10000 < cfg0.N := by rw [hN]; omega
  obtain ⟨-, -, -, -, e0, e1⟩ := prod_index_maps ⟨(i 0).val / 10000, hq⟩
  refine ⟨⟨(i 0).val / 10000, hq⟩, flush0_2 _, ?_⟩
  rw [prod_mem_block]
  intro a
  match a with
  | ⟨0, _⟩ =>
    show win0_2.index ⟨(i 0).val / 10000, hq⟩ (0 : Fin 2) * 10000 ≤ (i 0).val
      ∧ (i 0).val < win0_2.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win0_2.index ⟨(i 0).val / 10000, hq⟩ (1 : Fin 2) * 16 ≤ (i 1).val
      ∧ (i 1).val < win0_2.index ⟨(i 0).val / 10000, hq⟩ (1 : Fin 2) * 16 + 16
    rw [e1]; omega

/-- The array the first region leaves is the whole product x · W of the arrays it found. -/
theorem region0_array (V : (c : Dev nD) → (b : Ref sig .tc) → Buf (Elt Ideal) ((c : Thread nD τ).loc b)) (c : Dev nD) :
    (dat0 (F := Ideal) V c).arrAt 2 cfg0.N = matProd (V c main_arg0) (V c main_arg5) :=
  (dat0 (F := Ideal) V c).arrAt_eq_of_cover 2 (matProd (V c main_arg0) (V c main_arg5))
    (fun t _ => prod_flushed V c t) prod_blocks_cover

end Cert.GraphConv

end
-- ==== Proof.Region1.lean ====
/-
  The hidden layer's dense piece, relu (h + bias) · W, as the array the second grid region leaves.

  The region walks ten grid points. At point t the body takes rows 10000·t … 10000·t + 9999 of the aggregated
  features h, adds the one bias row to every row, takes the maximum with the f32 word 0, and multiplies by the whole
  16×16 weight matrix into a zero accumulator; the pipeline writes the 10000×16 product back as the same rows of the
  result. The reshapes to the same shape are identities and rounding to bf16 changes nothing at the ideal values, so
  entry (p, o) of the block is ∑ k, max (h(10000·t + p, k) + bias(0, k)) 0 · w(k, o): the block is the restriction of
  the whole array to its rows. The ten row blocks cover every row r (the block of row r is r / 10000).
-/
import proofs.«101416_j65987877536243_1_alg».proof.Proof.Gen.KernelIdeal.Frame
import proofs.«101416_j65987877536243_1_alg».proof.Proof.Spec
import proofs.«101416_j65987877536243_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.GraphConv

open Cert.KernelIdeal Cert.KernelIdeal.Gen
open Idealize.ShloMosaic Idealize.ShloMosaic.TcCoe Idealize.SL.Sem Idealize.ShloMosaic.ValueIdx
open Idealize.ShloMosaic.Pipeline (Dat)

/-- The whole-buffer rectangle's offsets are zero on both axes. -/
theorem hidden_offsets_zero : (![0, 0] : Fin 2 → Nat) = fun _ => 0 := funext fun a => by fin_cases a <;> rfl

/-- The body's activation of a row block: the bias row added to every row, then the positive part. -/
theorem hidden_block_relu (x0 : Vec Ideal S10000x16 .f32) (x1 : Vec Ideal S1x16 .f32) :
    maximumf (F := Ideal)
        (addf (shapeCast S10000x16 x0 shapeCasts_S10000x16_S10000x16)
          (broadcastTo S10000x16 (shapeCast S1x16 x1 shapeCasts_S1x16_S1x16) broadcasts_S1x16_S10000x16))
        (broadcast S10000x16 (Scalar.ofBits (F := Ideal) .f32 0x00000000#32))
      = biasRelu (n := 10000) (a := 16) x0 x1 := by
  rw [shapeCast_self, shapeCast_self]
  funext i
  obtain ⟨p, k, rfl⟩ : ∃ (p : Fin 10000) (k : Fin 16), i = ix2 p k := ⟨i 0, i 1, eq_ix2 i⟩
  rw [maximumf_apply, addf_apply, broadcast_apply, biasRelu_apply,
    broadcastTo_1b_ab_apply (a := 10000) (b := 16) x1 broadcasts_S1x16_S10000x16 p k]
  rfl

/-- The body's product at entry (p, o) of a row block: the sum over the 16 shared positions of the activated row
    against the weight column. -/
theorem hidden_block_apply (x0 : Vec Ideal S10000x16 .f32) (x1 : Vec Ideal S1x16 .f32) (x2 : Vec Ideal S16x16 .f32)
    (p : Fin 10000) (o : Fin 16) :
    k1_pay1 (F := Ideal) x0 x1 x2 (ix2 p o)
      = ∑ k : Fin 16, max (x0 (ix2 p k) + x1 (ix2 0 k)) (Ideal.ofBits .f32 0x00000000#32) * x2 (ix2 k o) := by
  unfold k1_pay1
  refine (congrArg (fun L : FVec Ideal S10000x16 .f32 =>
    matmul (F := Ideal) (φ₁ := .f32) (φ₂ := .f32) (DotDims.plain 10000 16 16) none L x2
      (constant S10000x16 .f32 0x00000000#32) (ix2 p o))
    (hidden_block_relu x0 x1)).trans ?_
  exact Cert.LibPlainDot.matmul_zero_apply (n := 10000) (a := 16) (b := 16) none (biasRelu x0 x1) x2 p o

variable (V : (c : Dev nD) → (b : Ref sig .tc) → Buf (Elt Ideal) ((c : Thread nD τ).loc b))

/-- The printed index maps over the ten grid points: the features' and the result's blocks move down with the point,
    one block per point, and stay in column block 0; the bias row's and the weight matrix's blocks never move. -/
theorem hidden_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the features' block at point t is row 10000·t + p of the array. -/
theorem hidden_tall_block (c : Dev nD) (t : Fin cfg1.N) (p : Fin 10000) (k : Fin 16) (r : Fin 100000)
    (hr : r.val = 10000 * t.val + p.val) :
    (iblk1 V c 0 t : Vec Ideal S10000x16 .f32) (ix2 p k) = (V c main_v45 : S100000x16.Idx → EReal) (ix2 r k) := by
  obtain ⟨e0, e1, -⟩ := hidden_index_maps t
  show (V c main_v45 : S100000x16.Idx → EReal) (((cfg1.win 0).blk t).view.emb (ix2 p k)) = _
  refine congrArg _ (funext fun a => Fin.ext ?_)
  match a with
  | ⟨0, _⟩ => show win1_0.index t (0 : Fin 2) * 10000 + 1 * p.val = r.val; rw [e0, hr]; omega
  | ⟨1, _⟩ => show win1_0.index t (1 : Fin 2) * 16 + 1 * k.val = k.val; rw [e1]; omega

/-- The bias row's block at every point is the whole row. -/
theorem hidden_bias_block (c : Dev nD) (t : Fin cfg1.N) (k : Fin 16) :
    (iblk1 V c 1 t : Vec Ideal S1x16 .f32) (ix2 0 k) = (V c main_v46 : S1x16.Idx → EReal) (ix2 0 k) := by
  obtain ⟨-, -, e0, e1, -⟩ := hidden_index_maps t
  show (V c main_v46 : S1x16.Idx → EReal) (((cfg1.win 1).blk t).view.emb (ix2 0 k)) = _
  refine congrArg _ (funext fun a => Fin.ext ?_)
  match a with
  | ⟨0, _⟩ => show win1_1.index t (0 : Fin 2) * 1 + 1 * 0 = 0; rw [e0]
  | ⟨1, _⟩ => show win1_1.index t (1 : Fin 2) * 16 + 1 * k.val = k.val; rw [e1]; omega

/-- The weight matrix's block at every point is the whole matrix. -/
theorem hidden_weight_block (c : Dev nD) (t : Fin cfg1.N) (k : Fin 16) (o : Fin 16) :
    (iblk1 V c 2 t : Vec Ideal S16x16 .f32) (ix2 k o) = (V c main_arg7 : S16x16.Idx → EReal) (ix2 k o) := by
  obtain ⟨-, -, -, -, e0, e1, -⟩ := hidden_index_maps t
  show (V c main_arg7 : S16x16.Idx → EReal) (((cfg1.win 2).blk t).view.emb (ix2 k o)) = _
  refine congrArg _ (funext fun a => Fin.ext ?_)
  match a with
  | ⟨0, _⟩ => show win1_2.index t (0 : Fin 2) * 16 + 1 * k.val = k.val; rw [e0]; omega
  | ⟨1, _⟩ => show win1_2.index t (1 : Fin 2) * 16 + 1 * o.val = o.val; rw [e1]; omega

/-- Two arrays over a 10000×16 block agree when they agree at every (p, o). -/
theorem hidden_block_ext {α : Type} (f g : S10000x16.Idx → α)
    (h : ∀ (p : Fin 10000) (o : Fin 16), f (ix2 p o) = g (ix2 p o)) : f = g :=
  funext fun j => by rw [eq_ix2 j]; exact h (j 0) (j 1)

/-- What point t writes back is block t of the whole array: rows 10000·t … 10000·t + 9999 of relu (h + bias) · W. -/
theorem hidden_flushed (c : Dev nD) (t : Fin cfg1.N) :
    (dat1 (F := Ideal) V c).flushed 3 t
      = ((cfg1.win 3).blk t).view.read (Elt Ideal) (hidden (V c main_v45) (V c main_v46) (V c main_arg7)) := by
  show (cfg1.win 3).cut (grid1.coords t) ((dat1 (F := Ideal) V c).after 3 t) = _
  rw [after1_3]
  unfold out1_3
  rw [View.canon_unit_zero hidden_offsets_zero]
  simp only [View.ld_unit_zero (S := S10000x16) hidden_offsets_zero, View.ld_unit_zero (S := S1x16) hidden_offsets_zero,
    View.ld_unit_zero (S := S16x16) hidden_offsets_zero]
  refine hidden_block_ext _ _ fun p o => ?_
  obtain ⟨-, -, -, -, -, -, e0, e1⟩ := hidden_index_maps t
  have hN : cfg1.N = 10 := N_1
  have ht : t.val < 10 := hN ▸ t.isLt
  have hrow : 10000 * t.val + p.val < 100000 := by have := p.isLt; omega
  show k1_pay1 (F := Ideal) (iblk1 V c 0 t) (iblk1 V c 1 t) (iblk1 V c 2 t) (ix2 p o)
    = hidden (V c main_v45) (V c main_v46) (V c main_arg7) (((cfg1.win 3).blk t).view.emb (ix2 p o))
  have hemb : ((cfg1.win 3).blk t).view.emb (ix2 p o) = (ix2 ⟨10000 * t.val + p.val, hrow⟩ o : S100000x16.Idx) := by
    refine funext fun a => Fin.ext ?_
    match a with
    | ⟨0, _⟩ => show win1_3.index t (0 : Fin 2) * 10000 + 1 * p.val = 10000 * t.val + p.val; rw [e0]; omega
    | ⟨1, _⟩ => show win1_3.index t (1 : Fin 2) * 16 + 1 * o.val = o.val; rw [e1]; omega
  rw [hemb, hidden_apply]
  refine (hidden_block_apply (iblk1 V c 0 t) (iblk1 V c 1 t) (iblk1 V c 2 t) p o).trans ?_
  refine Finset.sum_congr rfl fun k _ => ?_
  rw [hidden_tall_block V c t p k ⟨10000 * t.val + p.val, hrow⟩ rfl, hidden_bias_block V c t k,
    hidden_weight_block V c t k o]

/-- A row of the result is in point t's block iff it is one of rows 10000·t … 10000·t + 9999 (and its column is one of
    the block's 16). -/
theorem hidden_mem_block (t : Fin cfg1.N) (i : S100000x16.Idx) :
    i ∈ ((cfg1.win 3).blk t).view.set
      ↔ ∀ a : Fin 2, win1_3.index t a * S10000x16.size a ≤ (i a).val
          ∧ (i a).val < win1_3.index t a * S10000x16.size a + S10000x16.size a := by
  show i ∈ ((View.whole main_v47).slice (win1_3.rect t)).set ↔ _
  rw [View.set_slice_whole, Rect.mem_set_unit]
  exact Iff.rfl

/-- Every entry of the result is written back by some point: row r by point r / 10000. -/
theorem hidden_blocks_cover (i : S100000x16.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 16 := (i 1).isLt
  have hq : (i 0).val / 10000 < cfg1.N := by rw [hN]; omega
  obtain ⟨-, -, -, -, -, -, e0, e1⟩ := hidden_index_maps ⟨(i 0).val / 10000, hq⟩
  refine ⟨⟨(i 0).val / 10000, hq⟩, flush1_3 _, ?_⟩
  rw [hidden_mem_block]
  intro a
  match a with
  | ⟨0, _⟩ =>
    show win1_3.index ⟨(i 0).val / 10000, hq⟩ (0 : Fin 2) * 10000 ≤ (i 0).val
      ∧ (i 0).val < win1_3.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hq⟩ (1 : Fin 2) * 16 ≤ (i 1).val
      ∧ (i 1).val < win1_3.index ⟨(i 0).val / 10000, hq⟩ (1 : Fin 2) * 16 + 16
    rw [e1]; omega

/-- The array the second region leaves is relu (h + bias) · W of the arrays it found. -/
theorem region1_array (V : (c : Dev nD) → (b : Ref sig .tc) → Buf (Elt Ideal) ((c : Thread nD τ).loc b)) (c : Dev nD) :
    (dat1 (F := Ideal) V c).arrAt 3 cfg1.N = hidden (V c main_v45) (V c main_v46) (V c main_arg7) :=
  (dat1 (F := Ideal) V c).arrAt_eq_of_cover 3 (hidden (V c main_v45) (V c main_v46) (V c main_arg7))
    (fun t _ => hidden_flushed V c t) hidden_blocks_cover

end Cert.GraphConv

end
-- ==== Proof.Region2.lean ====
/-
  The readout, relu (h + bias) · w + c, as the array the third grid region leaves.

  The region walks ten grid points. At point t the body takes rows 10000·t … 10000·t + 9999 of the aggregated
  features h, adds the one bias row to every row, takes the maximum with the f32 word 0, multiplies by the whole 16×1
  weight column into a zero accumulator, and adds the one 1×1 entry c to every row of the product; the pipeline writes
  the 10000×1 result back as the same rows of the output. The reshapes to the same shape are identities and rounding
  to bf16 changes nothing at the ideal values, so entry (p, o) of the block is
  (∑ k, max (h(10000·t + p, k) + bias(0, k)) 0 · w(k, o)) + c(0, o): the block is the restriction of the whole array
  to its rows. The ten row blocks cover every row r (the block of row r is r / 10000).
-/
import proofs.«101416_j65987877536243_1_alg».proof.Proof.Gen.KernelIdeal.Frame
import proofs.«101416_j65987877536243_1_alg».proof.Proof.Spec
import proofs.«101416_j65987877536243_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.GraphConv

open Cert.KernelIdeal Cert.KernelIdeal.Gen
open Idealize.ShloMosaic Idealize.ShloMosaic.TcCoe Idealize.SL.Sem Idealize.ShloMosaic.ValueIdx
open Idealize.ShloMosaic.Pipeline (Dat)

/-- The whole-buffer rectangle's offsets are zero on both axes. -/
theorem readout_offsets_zero : (![0, 0] : Fin 2 → Nat) = fun _ => 0 := funext fun a => by fin_cases a <;> rfl

/-- The body's activation of a row block: the bias row added to every row, then the positive part. -/
theorem readout_block_relu (x0 : Vec Ideal S10000x16 .f32) (x1 : Vec Ideal S1x16 .f32) :
    maximumf (F := Ideal)
        (addf (shapeCast S10000x16 x0 shapeCasts_S10000x16_S10000x16)
          (broadcastTo S10000x16 (shapeCast S1x16 x1 shapeCasts_S1x16_S1x16) broadcasts_S1x16_S10000x16))
        (broadcast S10000x16 (Scalar.ofBits (F := Ideal) .f32 0x00000000#32))
      = biasRelu (n := 10000) (a := 16) x0 x1 := by
  rw [shapeCast_self, shapeCast_self]
  funext i
  obtain ⟨p, k, rfl⟩ : ∃ (p : Fin 10000) (k : Fin 16), i = ix2 p k := ⟨i 0, i 1, eq_ix2 i⟩
  rw [maximumf_apply, addf_apply, broadcast_apply, biasRelu_apply,
    broadcastTo_1b_ab_apply (a := 10000) (b := 16) x1 broadcasts_S1x16_S10000x16 p k]
  rfl

/-- The body's result at entry (p, o) of a row block: the sum over the 16 shared positions of the activated row
    against the weight column, plus the one added entry. -/
theorem readout_block_apply (x0 : Vec Ideal S10000x16 .f32) (x1 : Vec Ideal S1x16 .f32) (x2 : Vec Ideal S16x1 .f32)
    (x3 : Vec Ideal S1x1 .f32) (p : Fin 10000) (o : Fin 1) :
    k2_pay1 (F := Ideal) x0 x1 x2 x3 (ix2 p o)
      = (∑ k : Fin 16, max (x0 (ix2 p k) + x1 (ix2 0 k)) (Ideal.ofBits .f32 0x00000000#32) * x2 (ix2 k o))
          + x3 (ix2 0 o) := by
  unfold k2_pay1
  refine (addf_apply _ _ (ix2 p o)).trans ?_
  refine congrArg₂ (· + ·) ?_ ?_
  · refine (congrArg (fun L : FVec Ideal S10000x16 .f32 =>
      matmul (F := Ideal) (φ₁ := .f32) (φ₂ := .f32) (DotDims.plain 10000 16 1) none L x2
        (constant S10000x1 .f32 0x00000000#32) (ix2 p o))
      (readout_block_relu x0 x1)).trans ?_
    exact Cert.LibPlainDot.matmul_zero_apply (n := 10000) (a := 16) (b := 1) none (biasRelu x0 x1) x2 p o
  · rw [shapeCast_self]
    exact broadcastTo_1b_ab_apply (a := 10000) (b := 1) x3 broadcasts_S1x1_S10000x1 p o

variable (V : (c : Dev nD) → (b : Ref sig .tc) → Buf (Elt Ideal) ((c : Thread nD τ).loc b))

/-- The printed index maps over the ten grid points: the features' and the output's blocks move down with the point,
    one block per point, and stay in column block 0; the bias row's, the weight column's and the added entry's blocks
    never move. -/
theorem readout_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the features' block at point t is row 10000·t + p of the array. -/
theorem readout_tall_block (c : Dev nD) (t : Fin cfg2.N) (p : Fin 10000) (k : Fin 16) (r : Fin 100000)
    (hr : r.val = 10000 * t.val + p.val) :
    (iblk2 V c 0 t : Vec Ideal S10000x16 .f32) (ix2 p k) = (V c main_v60 : S100000x16.Idx → EReal) (ix2 r k) := by
  obtain ⟨e0, e1, -⟩ := readout_index_maps t
  show (V c main_v60 : S100000x16.Idx → EReal) (((cfg2.win 0).blk t).view.emb (ix2 p k)) = _
  refine congrArg _ (funext fun a => Fin.ext ?_)
  match a with
  | ⟨0, _⟩ => show win2_0.index t (0 : Fin 2) * 10000 + 1 * p.val = r.val; rw [e0, hr]; omega
  | ⟨1, _⟩ => show win2_0.index t (1 : Fin 2) * 16 + 1 * k.val = k.val; rw [e1]; omega

/-- The bias row's block at every point is the whole row. -/
theorem readout_bias_block (c : Dev nD) (t : Fin cfg2.N) (k : Fin 16) :
    (iblk2 V c 1 t : Vec Ideal S1x16 .f32) (ix2 0 k) = (V c main_v61 : S1x16.Idx → EReal) (ix2 0 k) := by
  obtain ⟨-, -, e0, e1, -⟩ := readout_index_maps t
  show (V c main_v61 : S1x16.Idx → EReal) (((cfg2.win 1).blk t).view.emb (ix2 0 k)) = _
  refine congrArg _ (funext fun a => Fin.ext ?_)
  match a with
  | ⟨0, _⟩ => show win2_1.index t (0 : Fin 2) * 1 + 1 * 0 = 0; rw [e0]
  | ⟨1, _⟩ => show win2_1.index t (1 : Fin 2) * 16 + 1 * k.val = k.val; rw [e1]; omega

/-- The weight column's block at every point is the whole column. -/
theorem readout_weight_block (c : Dev nD) (t : Fin cfg2.N) (k : Fin 16) (o : Fin 1) :
    (iblk2 V c 2 t : Vec Ideal S16x1 .f32) (ix2 k o) = (V c main_arg9 : S16x1.Idx → EReal) (ix2 k o) := by
  obtain ⟨-, -, -, -, e0, e1, -⟩ := readout_index_maps t
  show (V c main_arg9 : S16x1.Idx → EReal) (((cfg2.win 2).blk t).view.emb (ix2 k o)) = _
  refine congrArg _ (funext fun a => Fin.ext ?_)
  match a with
  | ⟨0, _⟩ => show win2_2.index t (0 : Fin 2) * 16 + 1 * k.val = k.val; rw [e0]; omega
  | ⟨1, _⟩ => show win2_2.index t (1 : Fin 2) * 1 + 1 * o.val = o.val; rw [e1]; omega

/-- The added entry's block at every point is the whole 1×1 array. -/
theorem readout_shift_block (c : Dev nD) (t : Fin cfg2.N) (o : Fin 1) :
    (iblk2 V c 3 t : Vec Ideal S1x1 .f32) (ix2 0 o) = (V c main_v62 : S1x1.Idx → EReal) (ix2 0 o) := by
  obtain ⟨-, -, -, -, -, -, e0, e1, -⟩ := readout_index_maps t
  show (V c main_v62 : S1x1.Idx → EReal) (((cfg2.win 3).blk t).view.emb (ix2 0 o)) = _
  refine congrArg _ (funext fun a => Fin.ext ?_)
  match a with
  | ⟨0, _⟩ => show win2_3.index t (0 : Fin 2) * 1 + 1 * 0 = 0; rw [e0]
  | ⟨1, _⟩ => show win2_3.index t (1 : Fin 2) * 1 + 1 * o.val = o.val; rw [e1]; omega

/-- Two arrays over a 10000×1 block agree when they agree at every (p, o). -/
theorem readout_block_ext {α : Type} (f g : S10000x1.Idx → α)
    (h : ∀ (p : Fin 10000) (o : Fin 1), f (ix2 p o) = g (ix2 p o)) : f = g :=
  funext fun j => by rw [eq_ix2 j]; exact h (j 0) (j 1)

/-- What point t writes back is block t of the whole array: rows 10000·t … 10000·t + 9999 of
    relu (h + bias) · w + c. -/
theorem readout_flushed (c : Dev nD) (t : Fin cfg2.N) :
    (dat2 (F := Ideal) V c).flushed 4 t
      = ((cfg2.win 4).blk t).view.read (Elt Ideal)
          (readout (V c main_v60) (V c main_v61) (V c main_arg9) (V c main_v62)) := by
  show (cfg2.win 4).cut (grid2.coords t) ((dat2 (F := Ideal) V c).after 4 t) = _
  rw [after2_4]
  unfold out2_4
  rw [View.canon_unit_zero readout_offsets_zero]
  simp only [View.ld_unit_zero (S := S10000x16) readout_offsets_zero, View.ld_unit_zero (S := S1x16) readout_offsets_zero,
    View.ld_unit_zero (S := S16x1) readout_offsets_zero, View.ld_unit_zero (S := S1x1) readout_offsets_zero]
  refine readout_block_ext _ _ fun p o => ?_
  obtain ⟨-, -, -, -, -, -, -, -, e0, e1⟩ := readout_index_maps t
  have hN : cfg2.N = 10 := N_2
  have ht : t.val < 10 := hN ▸ t.isLt
  have hrow : 10000 * t.val + p.val < 100000 := by have := p.isLt; omega
  show k2_pay1 (F := Ideal) (iblk2 V c 0 t) (iblk2 V c 1 t) (iblk2 V c 2 t) (iblk2 V c 3 t) (ix2 p o)
    = readout (V c main_v60) (V c main_v61) (V c main_arg9) (V c main_v62) (((cfg2.win 4).blk t).view.emb (ix2 p o))
  have hemb : ((cfg2.win 4).blk t).view.emb (ix2 p o) = (ix2 ⟨10000 * t.val + p.val, hrow⟩ o : S100000x1.Idx) := by
    refine funext fun a => Fin.ext ?_
    match a with
    | ⟨0, _⟩ => show win2_4.index t (0 : Fin 2) * 10000 + 1 * p.val = 10000 * t.val + p.val; rw [e0]; omega
    | ⟨1, _⟩ => show win2_4.index t (1 : Fin 2) * 1 + 1 * o.val = o.val; rw [e1]; omega
  rw [hemb, readout_apply]
  refine (readout_block_apply (iblk2 V c 0 t) (iblk2 V c 1 t) (iblk2 V c 2 t) (iblk2 V c 3 t) p o).trans ?_
  rw [readout_shift_block V c t o]
  refine congrArg (· + _) (Finset.sum_congr rfl fun k _ => ?_)
  rw [readout_tall_block V c t p k ⟨10000 * t.val + p.val, hrow⟩ rfl, readout_bias_block V c t k,
    readout_weight_block V c t k o]

/-- A row of the output is in point t's block iff it is one of rows 10000·t … 10000·t + 9999 (and its column is the
    block's one column). -/
theorem readout_mem_block (t : Fin cfg2.N) (i : S100000x1.Idx) :
    i ∈ ((cfg2.win 4).blk t).view.set
      ↔ ∀ a : Fin 2, win2_4.index t a * S10000x1.size a ≤ (i a).val
          ∧ (i a).val < win2_4.index t a * S10000x1.size a + S10000x1.size a := by
  show i ∈ ((View.whole main_v63).slice (win2_4.rect t)).set ↔ _
  rw [View.set_slice_whole, Rect.mem_set_unit]
  exact Iff.rfl

/-- Every entry of the output is written back by some point: row r by point r / 10000. -/
theorem readout_blocks_cover (i : S100000x1.Idx) :
    ∃ t : Fin cfg2.N, (cfg2.win 4).flush t = true ∧ i ∈ ((cfg2.win 4).blk t).view.set := by
  have hN : cfg2.N = 10 := N_2
  have hi0 : (i 0).val < 100000 := (i 0).isLt
  have hi1 : (i 1).val < 1 := (i 1).isLt
  have hq : (i 0).val / 10000 < cfg2.N := by rw [hN]; omega
  obtain ⟨-, -, -, -, -, -, -, -, e0, e1⟩ := readout_index_maps ⟨(i 0).val / 10000, hq⟩
  refine ⟨⟨(i 0).val / 10000, hq⟩, flush2_4 _, ?_⟩
  rw [readout_mem_block]
  intro a
  match a with
  | ⟨0, _⟩ =>
    show win2_4.index ⟨(i 0).val / 10000, hq⟩ (0 : Fin 2) * 10000 ≤ (i 0).val
      ∧ (i 0).val < win2_4.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win2_4.index ⟨(i 0).val / 10000, hq⟩ (1 : Fin 2) * 1 ≤ (i 1).val
      ∧ (i 1).val < win2_4.index ⟨(i 0).val / 10000, hq⟩ (1 : Fin 2) * 1 + 1
    rw [e1]; omega

/-- The array the third region leaves is relu (h + bias) · w + c of the arrays it found. -/
theorem region2_array (V : (c : Dev nD) → (b : Ref sig .tc) → Buf (Elt Ideal) ((c : Thread nD τ).loc b)) (c : Dev nD) :
    (dat2 (F := Ideal) V c).arrAt 4 cfg2.N = readout (V c main_v60) (V c main_v61) (V c main_arg9) (V c main_v62) :=
  (dat2 (F := Ideal) V c).arrAt_eq_of_cover 4 (readout (V c main_v60) (V c main_v61) (V c main_arg9) (V c main_v62))
    (fun t _ => readout_flushed V c t) readout_blocks_cover

end Cert.GraphConv

end
-- ==== Proof.HostGlue.lean ====
/-
  The host side of the kernel program, stretch by stretch, as functions of what each stretch finds.

  The operations before the first region build, from the edge list and the edge weights, the source and target index of
  every edge with the self loops appended, the symmetric degree normalisation of every edge, and leave the arguments as
  they were: the same operations, of the same arguments, as the reference's, stage for stage. Between the regions the
  program aggregates node features along the edges: every edge takes the feature row of its source node (an index below
  zero counted from the end), scales it by the edge's normalisation, and the scaled rows are summed into the rows of
  their target nodes, starting from zero. `aggregate` is that one function of the features, the normalisation and the
  two index vectors; both stretches compute it, and so does the reference, twice.
-/
import proofs.«101416_j65987877536243_1_alg».proof.Proof.Gen.KernelIdeal.Launch
import proofs.«101416_j65987877536243_1_alg».proof.Proof.Gen.ReferenceIdeal.Read
import Idealize.ShloMosaic.Lib.StableHlo.Run

set_option maxRecDepth 16384

noncomputable section

namespace Cert.GraphConv

open Cert.KernelIdeal Cert.KernelIdeal.Gen
open Idealize.ShloMosaic Idealize.ShloMosaic.TcCoe Idealize.SL.Sem Idealize.ShloMosaic.StableHlo

variable {F : FTy → Type} [FloatOps F]

/-- Features aggregated along the edges: row `col e` of the result collects `nrm e` times row `row e` of `h`. -/
def aggregate (h : (⟨S100000x16, .f32⟩ : BufTy).Contents (Elt F)) (nrm : (⟨S3300000, .f32⟩ : BufTy).Contents (Elt F))
    (row col : (⟨S3300000, .i32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 col)
    (mulf (broadcastInDim S3300000x16 ![0, 1] bcast_S3300000x1_S3300000x16_0_1 (broadcastInDim S3300000x1 ![0] bcast_S3300000_S3300000x1_0 nrm))
      (Host.gather gather_S100000x16_S3300000x1_S3300000x16_1_0_n_n_0_1_116 h
        (broadcastInDim S3300000x1 ![0] bcast_S3300000_S3300000x1_0
          (select (cmpi .slt row (broadcastInDim S3300000 ![] bcast_S_S3300000 (constantI S_ 32 0#32)))
            (addi row (broadcastInDim S3300000 ![] bcast_S_S3300000 (constantI S_ 32 100000#32))) row))))

/-! ## Before the first region -/

set_option maxHeartbeats 4000000 in
/-- The edge normalisation the first three stretches leave is the reference's, of the same two arguments. -/
theorem pre_norm (W : Valuation τ sig (Elt F)) :
    StableHlo.after hostOps0_2 (StableHlo.after hostOps0_1 (StableHlo.after hostOps0 W)) (Proc.devRef .tc main_v31)
      = Cert.ReferenceIdeal.Read.val_main_v32 (F := F) (W (Proc.devRef .tc main_arg1)) (W (Proc.devRef .tc main_arg2)) := by
  after_results_simp
  rfl

/-- The source indices, self loops appended. -/
theorem pre_row (W : Valuation τ sig (Elt F)) :
    StableHlo.after hostOps0_2 (StableHlo.after hostOps0_1 (StableHlo.after hostOps0 W)) (Proc.devRef .tc main_v3)
      = Cert.ReferenceIdeal.Read.val_main_v3 (F := F) (W (Proc.devRef .tc main_arg1)) := by
  after_results
  rfl

/-- The target indices, self loops appended. -/
theorem pre_col (W : Valuation τ sig (Elt F)) :
    StableHlo.after hostOps0_2 (StableHlo.after hostOps0_1 (StableHlo.after hostOps0 W)) (Proc.devRef .tc main_v6)
      = Cert.ReferenceIdeal.Read.val_main_v6 (F := F) (W (Proc.devRef .tc main_arg1)) := by
  after_results
  rfl

theorem pre_arg0 (W : Valuation τ sig (Elt F)) : StableHlo.after hostOps0_2 (StableHlo.after hostOps0_1 (StableHlo.after hostOps0 W)) (Proc.devRef .tc main_arg0) = W (Proc.devRef .tc main_arg0) := by
  after_results
theorem pre_arg5 (W : Valuation τ sig (Elt F)) : StableHlo.after hostOps0_2 (StableHlo.after hostOps0_1 (StableHlo.after hostOps0 W)) (Proc.devRef .tc main_arg5) = W (Proc.devRef .tc main_arg5) := by
  after_results
theorem pre_arg6 (W : Valuation τ sig (Elt F)) : StableHlo.after hostOps0_2 (StableHlo.after hostOps0_1 (StableHlo.after hostOps0 W)) (Proc.devRef .tc main_arg6) = W (Proc.devRef .tc main_arg6) := by
  after_results
theorem pre_arg7 (W : Valuation τ sig (Elt F)) : StableHlo.after hostOps0_2 (StableHlo.after hostOps0_1 (StableHlo.after hostOps0 W)) (Proc.devRef .tc main_arg7) = W (Proc.devRef .tc main_arg7) := by
  after_results
theorem pre_arg8 (W : Valuation τ sig (Elt F)) : StableHlo.after hostOps0_2 (StableHlo.after hostOps0_1 (StableHlo.after hostOps0 W)) (Proc.devRef .tc main_arg8) = W (Proc.devRef .tc main_arg8) := by
  after_results
theorem pre_arg9 (W : Valuation τ sig (Elt F)) : StableHlo.after hostOps0_2 (StableHlo.after hostOps0_1 (StableHlo.after hostOps0 W)) (Proc.devRef .tc main_arg9) = W (Proc.devRef .tc main_arg9) := by
  after_results
theorem pre_arg10 (W : Valuation τ sig (Elt F)) : StableHlo.after hostOps0_2 (StableHlo.after hostOps0_1 (StableHlo.after hostOps0 W)) (Proc.devRef .tc main_arg10) = W (Proc.devRef .tc main_arg10) := by
  after_results

/-! ## Between the first and the second region -/

set_option maxHeartbeats 4000000 in
/-- The first aggregation. -/
theorem mid1_agg (W : Valuation τ sig (Elt F)) :
    StableHlo.after hostOps1 W (Proc.devRef .tc main_v45)
      = aggregate (W (Proc.devRef .tc main_v32)) (W (Proc.devRef .tc main_v31)) (W (Proc.devRef .tc main_v3)) (W (Proc.devRef .tc main_v6)) := by
  after_results_simp
  rfl

/-- The first bias, as one row. -/
theorem mid1_bias (W : Valuation τ sig (Elt F)) :
    StableHlo.after hostOps1 W (Proc.devRef .tc main_v46) = shapeCast S1x16 (W (Proc.devRef .tc main_arg6)) shapeCasts_S16_S1x16 := by
  after_results
  rfl

theorem mid1_v31 (W : Valuation τ sig (Elt F)) : StableHlo.after hostOps1 W (Proc.devRef .tc main_v31) = W (Proc.devRef .tc main_v31) := by
  after_results
theorem mid1_v3 (W : Valuation τ sig (Elt F)) : StableHlo.after hostOps1 W (Proc.devRef .tc main_v3) = W (Proc.devRef .tc main_v3) := by
  after_results
theorem mid1_v6 (W : Valuation τ sig (Elt F)) : StableHlo.after hostOps1 W (Proc.devRef .tc main_v6) = W (Proc.devRef .tc main_v6) := by
  after_results
theorem mid1_arg7 (W : Valuation τ sig (Elt F)) : StableHlo.after hostOps1 W (Proc.devRef .tc main_arg7) = W (Proc.devRef .tc main_arg7) := by
  after_results
theorem mid1_arg8 (W : Valuation τ sig (Elt F)) : StableHlo.after hostOps1 W (Proc.devRef .tc main_arg8) = W (Proc.devRef .tc main_arg8) := by
  after_results
theorem mid1_arg9 (W : Valuation τ sig (Elt F)) : StableHlo.after hostOps1 W (Proc.devRef .tc main_arg9) = W (Proc.devRef .tc main_arg9) := by
  after_results
theorem mid1_arg10 (W : Valuation τ sig (Elt F)) : StableHlo.after hostOps1 W (Proc.devRef .tc main_arg10) = W (Proc.devRef .tc main_arg10) := by
  after_results

/-! ## Between the second and the third region -/

set_option maxHeartbeats 4000000 in
/-- The second aggregation. -/
theorem mid2_agg (W : Valuation τ sig (Elt F)) :
    StableHlo.after hostOps2 W (Proc.devRef .tc main_v60)
      = aggregate (W (Proc.devRef .tc main_v47)) (W (Proc.devRef .tc main_v31)) (W (Proc.devRef .tc main_v3)) (W (Proc.devRef .tc main_v6)) := by
  after_results_simp
  rfl

/-- The second bias, as one row. -/
theorem mid2_bias (W : Valuation τ sig (Elt F)) :
    StableHlo.after hostOps2 W (Proc.devRef .tc main_v61) = shapeCast S1x16 (W (Proc.devRef .tc main_arg8)) shapeCasts_S16_S1x16 := by
  after_results
  rfl

/-- The output bias, as one row of one entry. -/
theorem mid2_obias (W : Valuation τ sig (Elt F)) :
    StableHlo.after hostOps2 W (Proc.devRef .tc main_v62) = shapeCast S1x1 (W (Proc.devRef .tc main_arg10)) shapeCasts_S1_S1x1 := by
  after_results
  rfl

theorem mid2_arg9 (W : Valuation τ sig (Elt F)) : StableHlo.after hostOps2 W (Proc.devRef .tc main_arg9) = W (Proc.devRef .tc main_arg9) := by
  after_results

/-! ## The reference aggregates by the same function -/

theorem ref_agg1 (x0 : (⟨Cert.ReferenceIdeal.S100000x128, .f32⟩ : BufTy).Contents (Elt F)) (x1 : (⟨Cert.ReferenceIdeal.S2x3200000, .i32⟩ : BufTy).Contents (Elt F))
    (x2 : (⟨Cert.ReferenceIdeal.S3200000, .f32⟩ : BufTy).Contents (Elt F)) (x5 : (⟨Cert.ReferenceIdeal.S128x16, .f32⟩ : BufTy).Contents (Elt F)) :
    Cert.ReferenceIdeal.Read.val_main_v45 (F := F) x0 x1 x2 x5
      = aggregate (Cert.ReferenceIdeal.Read.val_main_v9 (F := F) x0 x5) (Cert.ReferenceIdeal.Read.val_main_v32 (F := F) x1 x2)
          (Cert.ReferenceIdeal.Read.val_main_v3 (F := F) x1) (Cert.ReferenceIdeal.Read.val_main_v6 (F := F) x1) := rfl

theorem ref_agg2 (x0 : (⟨Cert.ReferenceIdeal.S100000x128, .f32⟩ : BufTy).Contents (Elt F)) (x1 : (⟨Cert.ReferenceIdeal.S2x3200000, .i32⟩ : BufTy).Contents (Elt F))
    (x2 : (⟨Cert.ReferenceIdeal.S3200000, .f32⟩ : BufTy).Contents (Elt F)) (x5 : (⟨Cert.ReferenceIdeal.S128x16, .f32⟩ : BufTy).Contents (Elt F))
    (x6 : (⟨Cert.ReferenceIdeal.S16, .f32⟩ : BufTy).Contents (Elt F)) (x7 : (⟨Cert.ReferenceIdeal.S16x16, .f32⟩ : BufTy).Contents (Elt F)) :
    Cert.ReferenceIdeal.Read.val_main_v86 (F := F) x0 x1 x2 x5 x6 x7
      = aggregate (Cert.ReferenceIdeal.Read.val_main_v50 (F := F) x0 x1 x2 x5 x6 x7) (Cert.ReferenceIdeal.Read.val_main_v73 (F := F) x1 x2)
          (Cert.ReferenceIdeal.Read.val_main_v3 (F := F) x1) (Cert.ReferenceIdeal.Read.val_main_v6 (F := F) x1) := rfl

end Cert.GraphConv

end
-- ==== Proof.Chain.lean ====
/-
  The idealized kernel's result as one function of its arguments.

  Reading the program's segment boundaries in order: the first region leaves the product x · W1; the stretch after it
  aggregates that product along the edges and reshapes the first bias to a row; the second region leaves
  relu (aggregate + b1) · W2; the next stretch aggregates again and reshapes the remaining biases; the last region
  leaves relu (aggregate + b2) · Wout + bout, the result. The edge normalisation and the two index vectors are built
  once, before the first region, and no later segment writes them. `gcn` is the composition.
-/
import proofs.«101416_j65987877536243_1_alg».proof.Proof.Gen.KernelIdeal.Frame
import proofs.«101416_j65987877536243_1_alg».proof.Proof.HostGlue
import proofs.«101416_j65987877536243_1_alg».proof.Proof.Spec

set_option maxRecDepth 16384

noncomputable section

namespace Cert.GraphConv

open Cert.KernelIdeal Cert.KernelIdeal.Gen
open Idealize.ShloMosaic Idealize.ShloMosaic.TcCoe Idealize.SL.Sem Idealize.ShloMosaic.StableHlo

/-- The two-layer graph convolution with its readout, of the nine arguments the programs read. -/
def gcn (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x5 : (⟨S128x16, .f32⟩ : BufTy).Contents (Elt Ideal))
    (x6 : (⟨S16, .f32⟩ : BufTy).Contents (Elt Ideal)) (x7 : (⟨S16x16, .f32⟩ : BufTy).Contents (Elt Ideal))
    (x8 : (⟨S16, .f32⟩ : BufTy).Contents (Elt Ideal)) (x9 : (⟨S16x1, .f32⟩ : BufTy).Contents (Elt Ideal))
    (x10 : (⟨S1, .f32⟩ : BufTy).Contents (Elt Ideal)) : (⟨S100000x1, .f32⟩ : BufTy).Contents (Elt Ideal) :=
  readout
    (aggregate
      (hidden
        (aggregate (matProd x0 x5) (Cert.ReferenceIdeal.Read.val_main_v32 (F := Ideal) x1 x2) (Cert.ReferenceIdeal.Read.val_main_v3 (F := Ideal) x1) (Cert.ReferenceIdeal.Read.val_main_v6 (F := Ideal) x1))
        (shapeCast S1x16 x6 shapeCasts_S16_S1x16) x7)
      (Cert.ReferenceIdeal.Read.val_main_v32 (F := Ideal) x1 x2) (Cert.ReferenceIdeal.Read.val_main_v3 (F := Ideal) x1) (Cert.ReferenceIdeal.Read.val_main_v6 (F := Ideal) x1))
    (shapeCast S1x16 x8 shapeCasts_S16_S1x16) x9 (shapeCast S1x1 x10 shapeCasts_S1_S1x1)

variable (m : (ℓ : Loc nD τ sig) → Buf (Elt Ideal) ℓ) (ρ : Dev nD → PrngReg)

/-! ## At the first region's entry -/

theorem at3_norm (c : Dev nD) : W3 m ρ c (Proc.devRef .tc main_v31) = Cert.ReferenceIdeal.Read.val_main_v32 (F := Ideal) (m ((c.tc : Thread nD τ).loc main_arg1)) (m ((c.tc : Thread nD τ).loc main_arg2)) :=
  pre_norm (W0 m ρ c)
theorem at3_row (c : Dev nD) : W3 m ρ c (Proc.devRef .tc main_v3) = Cert.ReferenceIdeal.Read.val_main_v3 (F := Ideal) (m ((c.tc : Thread nD τ).loc main_arg1)) :=
  pre_row (W0 m ρ c)
theorem at3_col (c : Dev nD) : W3 m ρ c (Proc.devRef .tc main_v6) = Cert.ReferenceIdeal.Read.val_main_v6 (F := Ideal) (m ((c.tc : Thread nD τ).loc main_arg1)) :=
  pre_col (W0 m ρ c)
theorem at3_arg0 (c : Dev nD) : W3 m ρ c (Proc.devRef .tc main_arg0) = (m ((c.tc : Thread nD τ).loc main_arg0)) := pre_arg0 (W0 m ρ c)
theorem at3_arg5 (c : Dev nD) : W3 m ρ c (Proc.devRef .tc main_arg5) = (m ((c.tc : Thread nD τ).loc main_arg5)) := pre_arg5 (W0 m ρ c)
theorem at3_arg6 (c : Dev nD) : W3 m ρ c (Proc.devRef .tc main_arg6) = (m ((c.tc : Thread nD τ).loc main_arg6)) := pre_arg6 (W0 m ρ c)
theorem at3_arg7 (c : Dev nD) : W3 m ρ c (Proc.devRef .tc main_arg7) = (m ((c.tc : Thread nD τ).loc main_arg7)) := pre_arg7 (W0 m ρ c)
theorem at3_arg8 (c : Dev nD) : W3 m ρ c (Proc.devRef .tc main_arg8) = (m ((c.tc : Thread nD τ).loc main_arg8)) := pre_arg8 (W0 m ρ c)
theorem at3_arg9 (c : Dev nD) : W3 m ρ c (Proc.devRef .tc main_arg9) = (m ((c.tc : Thread nD τ).loc main_arg9)) := pre_arg9 (W0 m ρ c)
theorem at3_arg10 (c : Dev nD) : W3 m ρ c (Proc.devRef .tc main_arg10) = (m ((c.tc : Thread nD τ).loc main_arg10)) := pre_arg10 (W0 m ρ c)

/-! ## After the first region -/

theorem at4_norm (c : Dev nD) : W4 m ρ c (Proc.devRef .tc main_v31) = Cert.ReferenceIdeal.Read.val_main_v32 (F := Ideal) (m ((c.tc : Thread nD τ).loc main_arg1)) (m ((c.tc : Thread nD τ).loc main_arg2)) :=
  (W4_of_ne m ρ c main_v31 (by decide)).trans (at3_norm m ρ c)
theorem at4_row (c : Dev nD) : W4 m ρ c (Proc.devRef .tc main_v3) = Cert.ReferenceIdeal.Read.val_main_v3 (F := Ideal) (m ((c.tc : Thread nD τ).loc main_arg1)) :=
  (W4_of_ne m ρ c main_v3 (by decide)).trans (at3_row m ρ c)
theorem at4_col (c : Dev nD) : W4 m ρ c (Proc.devRef .tc main_v6) = Cert.ReferenceIdeal.Read.val_main_v6 (F := Ideal) (m ((c.tc : Thread nD τ).loc main_arg1)) :=
  (W4_of_ne m ρ c main_v6 (by decide)).trans (at3_col m ρ c)
theorem at4_arg6 (c : Dev nD) : W4 m ρ c (Proc.devRef .tc main_arg6) = (m ((c.tc : Thread nD τ).loc main_arg6)) :=
  (W4_of_ne m ρ c main_arg6 (by decide)).trans (at3_arg6 m ρ c)
theorem at4_arg7 (c : Dev nD) : W4 m ρ c (Proc.devRef .tc main_arg7) = (m ((c.tc : Thread nD τ).loc main_arg7)) :=
  (W4_of_ne m ρ c main_arg7 (by decide)).trans (at3_arg7 m ρ c)
theorem at4_arg8 (c : Dev nD) : W4 m ρ c (Proc.devRef .tc main_arg8) = (m ((c.tc : Thread nD τ).loc main_arg8)) :=
  (W4_of_ne m ρ c main_arg8 (by decide)).trans (at3_arg8 m ρ c)
theorem at4_arg9 (c : Dev nD) : W4 m ρ c (Proc.devRef .tc main_arg9) = (m ((c.tc : Thread nD τ).loc main_arg9)) :=
  (W4_of_ne m ρ c main_arg9 (by decide)).trans (at3_arg9 m ρ c)
theorem at4_arg10 (c : Dev nD) : W4 m ρ c (Proc.devRef .tc main_arg10) = (m ((c.tc : Thread nD τ).loc main_arg10)) :=
  (W4_of_ne m ρ c main_arg10 (by decide)).trans (at3_arg10 m ρ c)

/-- The first region leaves the product of the node features and the first weight matrix. -/
theorem at4_prod (h0 : ∀ (V : (c : Dev nD) → (b : Ref sig .tc) → Buf (Elt Ideal) ((c : Thread nD τ).loc b)) (c : Dev nD),
      (dat0 (F := Ideal) V c).arrAt 2 cfg0.N = matProd (V c main_arg0) (V c main_arg5)) (c : Dev nD) :
    W4 m ρ c (Proc.devRef .tc main_v32) = matProd (m ((c.tc : Thread nD τ).loc main_arg0)) (m ((c.tc : Thread nD τ).loc main_arg5)) := by
  refine (W4_arr m ρ c 2).trans ((h0 (V3 m ρ) c).trans ?_)
  rw [show V3 m ρ c main_arg0 = (m ((c.tc : Thread nD τ).loc main_arg0)) from at3_arg0 m ρ c, show V3 m ρ c main_arg5 = (m ((c.tc : Thread nD τ).loc main_arg5)) from at3_arg5 m ρ c]

/-! ## At the second region's entry -/

/-- The features after the first aggregation. -/
abbrev feat1 (c : Dev nD) : (⟨S100000x16, .f32⟩ : BufTy).Contents (Elt Ideal) :=
  aggregate (matProd (m ((c.tc : Thread nD τ).loc main_arg0)) (m ((c.tc : Thread nD τ).loc main_arg5))) (Cert.ReferenceIdeal.Read.val_main_v32 (F := Ideal) (m ((c.tc : Thread nD τ).loc main_arg1)) (m ((c.tc : Thread nD τ).loc main_arg2)))
    (Cert.ReferenceIdeal.Read.val_main_v3 (F := Ideal) (m ((c.tc : Thread nD τ).loc main_arg1))) (Cert.ReferenceIdeal.Read.val_main_v6 (F := Ideal) (m ((c.tc : Thread nD τ).loc main_arg1)))

theorem at5_feat (h0 : ∀ (V : (c : Dev nD) → (b : Ref sig .tc) → Buf (Elt Ideal) ((c : Thread nD τ).loc b)) (c : Dev nD),
      (dat0 (F := Ideal) V c).arrAt 2 cfg0.N = matProd (V c main_arg0) (V c main_arg5)) (c : Dev nD) :
    W5 m ρ c (Proc.devRef .tc main_v45) = feat1 m c := by
  refine (mid1_agg (W4 m ρ c)).trans ?_
  rw [at4_prod m ρ h0 c, at4_norm m ρ c, at4_row m ρ c, at4_col m ρ c]
theorem at5_bias (c : Dev nD) : W5 m ρ c (Proc.devRef .tc main_v46) = shapeCast S1x16 (m ((c.tc : Thread nD τ).loc main_arg6)) shapeCasts_S16_S1x16 := by
  refine (mid1_bias (W4 m ρ c)).trans ?_
  rw [at4_arg6 m ρ c]
theorem at5_norm (c : Dev nD) : W5 m ρ c (Proc.devRef .tc main_v31) = Cert.ReferenceIdeal.Read.val_main_v32 (F := Ideal) (m ((c.tc : Thread nD τ).loc main_arg1)) (m ((c.tc : Thread nD τ).loc main_arg2)) :=
  (mid1_v31 (W4 m ρ c)).trans (at4_norm m ρ c)
theorem at5_row (c : Dev nD) : W5 m ρ c (Proc.devRef .tc main_v3) = Cert.ReferenceIdeal.Read.val_main_v3 (F := Ideal) (m ((c.tc : Thread nD τ).loc main_arg1)) :=
  (mid1_v3 (W4 m ρ c)).trans (at4_row m ρ c)
theorem at5_col (c : Dev nD) : W5 m ρ c (Proc.devRef .tc main_v6) = Cert.ReferenceIdeal.Read.val_main_v6 (F := Ideal) (m ((c.tc : Thread nD τ).loc main_arg1)) :=
  (mid1_v6 (W4 m ρ c)).trans (at4_col m ρ c)
theorem at5_arg7 (c : Dev nD) : W5 m ρ c (Proc.devRef .tc main_arg7) = (m ((c.tc : Thread nD τ).loc main_arg7)) :=
  (mid1_arg7 (W4 m ρ c)).trans (at4_arg7 m ρ c)
theorem at5_arg8 (c : Dev nD) : W5 m ρ c (Proc.devRef .tc main_arg8) = (m ((c.tc : Thread nD τ).loc main_arg8)) :=
  (mid1_arg8 (W4 m ρ c)).trans (at4_arg8 m ρ c)
theorem at5_arg9 (c : Dev nD) : W5 m ρ c (Proc.devRef .tc main_arg9) = (m ((c.tc : Thread nD τ).loc main_arg9)) :=
  (mid1_arg9 (W4 m ρ c)).trans (at4_arg9 m ρ c)
theorem at5_arg10 (c : Dev nD) : W5 m ρ c (Proc.devRef .tc main_arg10) = (m ((c.tc : Thread nD τ).loc main_arg10)) :=
  (mid1_arg10 (W4 m ρ c)).trans (at4_arg10 m ρ c)

/-! ## After the second region -/

theorem at6_norm (c : Dev nD) : W6 m ρ c (Proc.devRef .tc main_v31) = Cert.ReferenceIdeal.Read.val_main_v32 (F := Ideal) (m ((c.tc : Thread nD τ).loc main_arg1)) (m ((c.tc : Thread nD τ).loc main_arg2)) :=
  (W6_of_ne m ρ c main_v31 (by decide)).trans (at5_norm m ρ c)
theorem at6_row (c : Dev nD) : W6 m ρ c (Proc.devRef .tc main_v3) = Cert.ReferenceIdeal.Read.val_main_v3 (F := Ideal) (m ((c.tc : Thread nD τ).loc main_arg1)) :=
  (W6_of_ne m ρ c main_v3 (by decide)).trans (at5_row m ρ c)
theorem at6_col (c : Dev nD) : W6 m ρ c (Proc.devRef .tc main_v6) = Cert.ReferenceIdeal.Read.val_main_v6 (F := Ideal) (m ((c.tc : Thread nD τ).loc main_arg1)) :=
  (W6_of_ne m ρ c main_v6 (by decide)).trans (at5_col m ρ c)
theorem at6_arg8 (c : Dev nD) : W6 m ρ c (Proc.devRef .tc main_arg8) = (m ((c.tc : Thread nD τ).loc main_arg8)) :=
  (W6_of_ne m ρ c main_arg8 (by decide)).trans (at5_arg8 m ρ c)
theorem at6_arg9 (c : Dev nD) : W6 m ρ c (Proc.devRef .tc main_arg9) = (m ((c.tc : Thread nD τ).loc main_arg9)) :=
  (W6_of_ne m ρ c main_arg9 (by decide)).trans (at5_arg9 m ρ c)
theorem at6_arg10 (c : Dev nD) : W6 m ρ c (Proc.devRef .tc main_arg10) = (m ((c.tc : Thread nD τ).loc main_arg10)) :=
  (W6_of_ne m ρ c main_arg10 (by decide)).trans (at5_arg10 m ρ c)

/-- The hidden features the second region leaves. -/
abbrev hid (c : Dev nD) : (⟨S100000x16, .f32⟩ : BufTy).Contents (Elt Ideal) :=
  hidden (feat1 m c) (shapeCast S1x16 (m ((c.tc : Thread nD τ).loc main_arg6)) shapeCasts_S16_S1x16) (m ((c.tc : Thread nD τ).loc main_arg7))

theorem at6_hid (h0 : ∀ (V : (c : Dev nD) → (b : Ref sig .tc) → Buf (Elt Ideal) ((c : Thread nD τ).loc b)) (c : Dev nD),
      (dat0 (F := Ideal) V c).arrAt 2 cfg0.N = matProd (V c main_arg0) (V c main_arg5))
    (h1 : ∀ (V : (c : Dev nD) → (b : Ref sig .tc) → Buf (Elt Ideal) ((c : Thread nD τ).loc b)) (c : Dev nD),
      (dat1 (F := Ideal) V c).arrAt 3 cfg1.N = hidden (V c main_v45) (V c main_v46) (V c main_arg7)) (c : Dev nD) :
    W6 m ρ c (Proc.devRef .tc main_v47) = hid m c := by
  refine (W6_arr m ρ c 3).trans ((h1 (V5 m ρ) c).trans ?_)
  rw [show V5 m ρ c main_v45 = feat1 m c from at5_feat m ρ h0 c,
    show V5 m ρ c main_v46 = shapeCast S1x16 (m ((c.tc : Thread nD τ).loc main_arg6)) shapeCasts_S16_S1x16 from at5_bias m ρ c,
    show V5 m ρ c main_arg7 = (m ((c.tc : Thread nD τ).loc main_arg7)) from at5_arg7 m ρ c]

/-! ## At the third region's entry, and the result -/

/-- The features after the second aggregation. -/
abbrev feat2 (c : Dev nD) : (⟨S100000x16, .f32⟩ : BufTy).Contents (Elt Ideal) :=
  aggregate (hid m c) (Cert.ReferenceIdeal.Read.val_main_v32 (F := Ideal) (m ((c.tc : Thread nD τ).loc main_arg1)) (m ((c.tc : Thread nD τ).loc main_arg2)))
    (Cert.ReferenceIdeal.Read.val_main_v3 (F := Ideal) (m ((c.tc : Thread nD τ).loc main_arg1))) (Cert.ReferenceIdeal.Read.val_main_v6 (F := Ideal) (m ((c.tc : Thread nD τ).loc main_arg1)))

theorem at7_feat (h0 : ∀ (V : (c : Dev nD) → (b : Ref sig .tc) → Buf (Elt Ideal) ((c : Thread nD τ).loc b)) (c : Dev nD),
      (dat0 (F := Ideal) V c).arrAt 2 cfg0.N = matProd (V c main_arg0) (V c main_arg5))
    (h1 : ∀ (V : (c : Dev nD) → (b : Ref sig .tc) → Buf (Elt Ideal) ((c : Thread nD τ).loc b)) (c : Dev nD),
      (dat1 (F := Ideal) V c).arrAt 3 cfg1.N = hidden (V c main_v45) (V c main_v46) (V c main_arg7)) (c : Dev nD) :
    W7 m ρ c (Proc.devRef .tc main_v60) = feat2 m c := by
  refine (mid2_agg (W6 m ρ c)).trans ?_
  rw [at6_hid m ρ h0 h1 c, at6_norm m ρ c, at6_row m ρ c, at6_col m ρ c]
theorem at7_bias (c : Dev nD) : W7 m ρ c (Proc.devRef .tc main_v61) = shapeCast S1x16 (m ((c.tc : Thread nD τ).loc main_arg8)) shapeCasts_S16_S1x16 := by
  refine (mid2_bias (W6 m ρ c)).trans ?_
  rw [at6_arg8 m ρ c]
theorem at7_obias (c : Dev nD) : W7 m ρ c (Proc.devRef .tc main_v62) = shapeCast S1x1 (m ((c.tc : Thread nD τ).loc main_arg10)) shapeCasts_S1_S1x1 := by
  refine (mid2_obias (W6 m ρ c)).trans ?_
  rw [at6_arg10 m ρ c]
theorem at7_arg9 (c : Dev nD) : W7 m ρ c (Proc.devRef .tc main_arg9) = (m ((c.tc : Thread nD τ).loc main_arg9)) :=
  (mid2_arg9 (W6 m ρ c)).trans (at6_arg9 m ρ c)

/-- The last boundary holds the graph convolution of the launch arguments in the result buffer. -/
theorem kernel_value (h0 : ∀ (V : (c : Dev nD) → (b : Ref sig .tc) → Buf (Elt Ideal) ((c : Thread nD τ).loc b)) (c : Dev nD),
      (dat0 (F := Ideal) V c).arrAt 2 cfg0.N = matProd (V c main_arg0) (V c main_arg5))
    (h1 : ∀ (V : (c : Dev nD) → (b : Ref sig .tc) → Buf (Elt Ideal) ((c : Thread nD τ).loc b)) (c : Dev nD),
      (dat1 (F := Ideal) V c).arrAt 3 cfg1.N = hidden (V c main_v45) (V c main_v46) (V c main_arg7))
    (h2 : ∀ (V : (c : Dev nD) → (b : Ref sig .tc) → Buf (Elt Ideal) ((c : Thread nD τ).loc b)) (c : Dev nD),
      (dat2 (F := Ideal) V c).arrAt 4 cfg2.N = readout (V c main_v60) (V c main_v61) (V c main_arg9) (V c main_v62)) (c : Dev nD) :
    W8 m ρ c (Proc.devRef .tc main_v63)
      = gcn (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W8_arr m ρ c 4).trans ((h2 (V7 m ρ) c).trans ?_)
  rw [show V7 m ρ c main_v60 = feat2 m c from at7_feat m ρ h0 h1 c,
    show V7 m ρ c main_v61 = shapeCast S1x16 (m ((c.tc : Thread nD τ).loc main_arg8)) shapeCasts_S16_S1x16 from at7_bias m ρ c,
    show V7 m ρ c main_arg9 = (m ((c.tc : Thread nD τ).loc main_arg9)) from at7_arg9 m ρ c,
    show V7 m ρ c main_v62 = shapeCast S1x1 (m ((c.tc : Thread nD τ).loc main_arg10)) shapeCasts_S1_S1x1 from at7_obias m ρ c]
  rfl

end Cert.GraphConv

end
-- ==== Proof.RefLayers.lean ====
/-
  The reference's three dense layers, read entry by entry at the ideal values, are the specification's dense pieces.

  Each dense layer of the reference is a product of a tall array by a small weight matrix: entry (p, o) is the sum over
  the shared position k of the left entry (p, k) times the right entry (k, o). The first layer multiplies the node
  features by the first weight matrix. The second first adds the bias row to every row of the aggregated features and
  takes the maximum with zero; the third does the same and then adds one more row to the product. A bias vector enters
  each layer as a one-row matrix: the vector placed along the second axis, the first axis having the single position 0.
-/
import proofs.«101416_j65987877536243_1_alg».proof.Proof.Gen.ReferenceIdeal.Read
import proofs.«101416_j65987877536243_1_alg».proof.Proof.Gen.KernelIdeal
import proofs.«101416_j65987877536243_1_alg».proof.Proof.Spec
import proofs.«101416_j65987877536243_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.GraphConv

open Idealize.ShloMosaic Idealize.ShloMosaic.TcCoe Idealize.SL.Sem Idealize.ShloMosaic.ValueIdx
open Cert.ReferenceIdeal Cert.ReferenceIdeal.Read

/-- The first dense layer: entry (p, o) of the product of the node features by the first weight matrix is the sum
over the 128 feature positions k of x(p, k) · w(k, o). -/
theorem ref_prod (x0 : (⟨S100000x128, .f32⟩ : BufTy).Contents (Elt Ideal)) (x5 : (⟨S128x16, .f32⟩ : BufTy).Contents (Elt Ideal)) :
    val_main_v9 (F := Ideal) x0 x5 = matProd x0 x5 := by
  funext i
  obtain ⟨p, o, rfl⟩ : ∃ (p : Fin 100000) (o : Fin 16), i = ix2 p o := ⟨i 0, i 1, eq_ix2 i⟩
  rw [val_main_v9_apply, matProd_apply]
  refine Finset.sum_congr rfl fun k _ => ?_
  have el : lidx_main_v9 (ix2 p o) k = ix2 p k :=
    funext fun a => Fin.ext (by match a with | ⟨0, _⟩ => rfl | ⟨1, _⟩ => rfl)
  have er : ridx_main_v9 (ix2 p o) k = ix2 k o :=
    funext fun a => Fin.ext (by match a with | ⟨0, _⟩ => rfl | ⟨1, _⟩ => rfl)
  rw [el, er]

/-- The second dense layer: the bias row is added to every row of the aggregated features, the maximum with zero is
taken, and the result is multiplied by the 16×16 weight matrix; entry (p, o) is the sum over the 16 positions k. -/
theorem ref_hidden (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x5 : (⟨S128x16, .f32⟩ : BufTy).Contents (Elt Ideal))
    (x6 : (⟨S16, .f32⟩ : BufTy).Contents (Elt Ideal)) (x7 : (⟨S16x16, .f32⟩ : BufTy).Contents (Elt Ideal)) :
    val_main_v50 (F := Ideal) x0 x1 x2 x5 x6 x7 = hidden (val_main_v45 (F := Ideal) x0 x1 x2 x5) (val_main_v46 (F := Ideal) x6) x7 := by
  funext i
  obtain ⟨p, o, rfl⟩ : ∃ (p : Fin 100000) (o : Fin 16), i = ix2 p o := ⟨i 0, i 1, eq_ix2 i⟩
  rw [val_main_v50_apply, hidden_apply]
  refine Finset.sum_congr rfl fun k _ => ?_
  have el : lidx_main_v50 (ix2 p o) k = ix2 p k :=
    funext fun a => Fin.ext (by match a with | ⟨0, _⟩ => rfl | ⟨1, _⟩ => rfl)
  have er : ridx_main_v50 (ix2 p o) k = ix2 k o :=
    funext fun a => Fin.ext (by match a with | ⟨0, _⟩ => rfl | ⟨1, _⟩ => rfl)
  -- the bias broadcast along the rows is read at row 0 of the one-row matrix
  have eb : idx_main_v47 (ix2 p k) = ix2 0 k :=
    funext fun a => Fin.ext (by match a with | ⟨0, _⟩ => rfl | ⟨1, _⟩ => rfl)
  rw [el, er, val_main_v49_apply, val_main_v48_apply, val_main_v47_apply, val_main_call1_v0_apply,
    val_main_call1_cst_apply, eb]
  rfl

/-- The third dense layer: as the second, with the 16×1 weight matrix, and one more row (a single entry) added to every
row of the product. The result has one column, so the column coordinate is 0. -/
theorem ref_readout (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x5 : (⟨S128x16, .f32⟩ : BufTy).Contents (Elt Ideal))
    (x6 : (⟨S16, .f32⟩ : BufTy).Contents (Elt Ideal)) (x7 : (⟨S16x16, .f32⟩ : BufTy).Contents (Elt Ideal))
    (x8 : (⟨S16, .f32⟩ : BufTy).Contents (Elt Ideal)) (x9 : (⟨S16x1, .f32⟩ : BufTy).Contents (Elt Ideal))
    (x10 : (⟨S1, .f32⟩ : BufTy).Contents (Elt Ideal)) :
    val_main_v94 (F := Ideal) x0 x1 x2 x5 x6 x7 x8 x9 x10
      = readout (val_main_v86 (F := Ideal) x0 x1 x2 x5 x6 x7) (val_main_v87 (F := Ideal) x8) x9 (val_main_v92 (F := Ideal) x10) := by
  funext i
  obtain ⟨p, o, rfl⟩ : ∃ (p : Fin 100000) (o : Fin 1), i = ix2 p o := ⟨i 0, i 1, eq_ix2 i⟩
  obtain rfl : o = 0 := Fin.eq_zero o
  rw [val_main_v94_apply, val_main_v91_apply, val_main_v93_apply, readout_apply]
  -- the last row broadcast along the rows is read at its single entry
  have ec : idx_main_v93 (ix2 p (0 : Fin 1)) = ix2 0 0 :=
    funext fun a => Fin.ext (by match a with | ⟨0, _⟩ => rfl | ⟨1, _⟩ => rfl)
  rw [ec, Ideal.addf_def]
  refine congrArg (· + val_main_v92 (F := Ideal) x10 (ix2 0 0)) (Finset.sum_congr rfl fun k _ => ?_)
  have el : lidx_main_v91 (ix2 p (0 : Fin 1)) k = ix2 p k :=
    funext fun a => Fin.ext (by match a with | ⟨0, _⟩ => rfl | ⟨1, _⟩ => rfl)
  have er : ridx_main_v91 (ix2 p (0 : Fin 1)) k = ix2 k 0 :=
    funext fun a => Fin.ext (by match a with | ⟨0, _⟩ => rfl | ⟨1, _⟩ => rfl)
  have eb : idx_main_v88 (ix2 p k) = ix2 0 k :=
    funext fun a => Fin.ext (by match a with | ⟨0, _⟩ => rfl | ⟨1, _⟩ => rfl)
  rw [el, er, val_main_v90_apply, val_main_v89_apply, val_main_v88_apply, val_main_call3_v0_apply,
    val_main_call3_cst_apply, eb]
  rfl

/-- The reference computes the edge normalisation twice, by the same operations applied to the same arguments: the two
stage functions unfold, stage by stage, to the same term. -/
theorem ref_norm_again (x1 : (⟨S2x3200000, .i32⟩ : BufTy).Contents (Elt Ideal)) (x2 : (⟨S3200000, .f32⟩ : BufTy).Contents (Elt Ideal)) :
    val_main_v73 (F := Ideal) x1 x2 = val_main_v32 (F := Ideal) x1 x2 := rfl

/-- The kernel's bias row (a reshape of the 16-vector) is the reference's (a broadcast of it into a new leading axis):
entry (0, j) of either is entry j of the vector, since the row-major position of (0, j) in a 1×16 array is j. -/
theorem bias_row16 (x : (⟨S16, .f32⟩ : BufTy).Contents (Elt Ideal)) :
    shapeCast Cert.KernelIdeal.S1x16 x Cert.KernelIdeal.Facts₀.shapeCasts_S16_S1x16 = val_main_v46 (F := Ideal) x := by
  funext i
  rw [val_main_v46_apply]
  refine shapeCast_apply x _ i (idx_main_v46 i) ?_
  rw [Shape.rowMajor_val_two, Shape.rowMajor_val_one]
  have h0 : (i 0).val < 1 := (i 0).isLt
  show (i 1).val = (i 0).val * 16 + (i 1).val
  omega

/-- The same for the one-entry vector and the 1×1 row: the only position of either is 0. -/
theorem bias_row1 (x : (⟨S1, .f32⟩ : BufTy).Contents (Elt Ideal)) :
    shapeCast Cert.KernelIdeal.S1x1 x Cert.KernelIdeal.Facts₀.shapeCasts_S1_S1x1 = val_main_v92 (F := Ideal) x := by
  funext i
  rw [val_main_v92_apply]
  refine shapeCast_apply x _ i (idx_main_v92 i) ?_
  rw [Shape.rowMajor_val_two, Shape.rowMajor_val_one]
  have h0 : (i 0).val < 1 := (i 0).isLt
  have h1 : (i 1).val < 1 := (i 1).isLt
  show 0 = (i 0).val * 1 + (i 1).val
  omega

end Cert.GraphConv

end
-- ==== Proof.Bridge.lean ====
/-
  The reference computes the same function of the arguments as the kernel program.

  Stage by stage the reference's result is: the readout of the second aggregation; that aggregation is of the hidden
  layer of the first aggregation, along the edge normalisation (which the reference builds a second time, by the same
  operations); the first aggregation is of the product x · W1. The kernel's bias rows (reshapes) are the reference's
  (broadcasts into a new leading axis).
-/
import proofs.«101416_j65987877536243_1_alg».proof.Proof.Chain
import proofs.«101416_j65987877536243_1_alg».proof.Proof.RefLayers

set_option maxRecDepth 16384

noncomputable section

namespace Cert.GraphConv

open Idealize.ShloMosaic Idealize.ShloMosaic.TcCoe Idealize.SL.Sem

/-- The reference's last stage is the graph convolution of its arguments. -/
theorem ref_value (x0 : (⟨Cert.ReferenceIdeal.S100000x128, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x5 : (⟨Cert.ReferenceIdeal.S128x16, .f32⟩ : BufTy).Contents (Elt Ideal))
    (x6 : (⟨Cert.ReferenceIdeal.S16, .f32⟩ : BufTy).Contents (Elt Ideal)) (x7 : (⟨Cert.ReferenceIdeal.S16x16, .f32⟩ : BufTy).Contents (Elt Ideal))
    (x8 : (⟨Cert.ReferenceIdeal.S16, .f32⟩ : BufTy).Contents (Elt Ideal)) (x9 : (⟨Cert.ReferenceIdeal.S16x1, .f32⟩ : BufTy).Contents (Elt Ideal))
    (x10 : (⟨Cert.ReferenceIdeal.S1, .f32⟩ : BufTy).Contents (Elt Ideal)) :
    Cert.ReferenceIdeal.Read.val_main_v94 (F := Ideal) x0 x1 x2 x5 x6 x7 x8 x9 x10 = gcn x0 x1 x2 x5 x6 x7 x8 x9 x10 := by
  have e8 : shapeCast Cert.KernelIdeal.S1x16 x8 Cert.KernelIdeal.Facts₀.shapeCasts_S16_S1x16
      = Cert.ReferenceIdeal.Read.val_main_v87 (F := Ideal) x8 := bias_row16 x8
  rw [ref_readout, ref_agg2, ref_hidden, ref_agg1, ref_prod, ref_norm_again]
  unfold gcn
  rw [bias_row16 x6, e8, bias_row1 x10]

end Cert.GraphConv

end
-- ==== Proof.lean ====
/-
  A two-layer graph convolution with a linear readout: the kernel program against its jnp reference, on the extended reals.

  Both programs append a self loop of weight one to every node, form the weighted in-degree of every node, the symmetric
  normalisation  norm(e) = dinv(row e) · w(e) · dinv(col e)  with dinv = 1/sqrt(degree) where the degree is positive and 0
  elsewhere, and then compute

      out = relu (A (relu (A (x · W1) + b1) · W2) + b2) · Wout + bout,

  where A sums, into every node, the normalised feature rows of its in-neighbours. The kernel program computes the three
  matrix products (the second and third with the bias and the positive part in front, the third with the output bias
  behind) in three grid regions of ten row blocks each and the aggregation A between them on the host; the reference
  computes everything on the host, and builds the normalisation once per layer. At the ideal values a change of float
  format is the identity and a block-wise product into a zero accumulator is the product, so each region leaves exactly
  the reference's corresponding stage, and everything else is the same operations of the same arguments. No law that
  needs finite inputs is used.

  The three frames: the two kernel programs' are the launch of their segments; the reference's is its run with the
  result dropped. The idealization rewrote nothing, so there is nothing to preserve.
-/
import proofs.«101416_j65987877536243_1_alg».proof.Defs
import proofs.«101416_j65987877536243_1_alg».proof.Proof.Gen.Kernel
import proofs.«101416_j65987877536243_1_alg».proof.Proof.Gen.Kernel.Skeleton
import proofs.«101416_j65987877536243_1_alg».proof.Proof.Gen.Kernel.Launch
import proofs.«101416_j65987877536243_1_alg».proof.Proof.Gen.Kernel.Points
import proofs.«101416_j65987877536243_1_alg».proof.Proof.Gen.Kernel.Frame
import proofs.«101416_j65987877536243_1_alg».proof.Proof.Gen.KernelIdeal
import proofs.«101416_j65987877536243_1_alg».proof.Proof.Gen.KernelIdeal.Skeleton
import proofs.«101416_j65987877536243_1_alg».proof.Proof.Gen.KernelIdeal.Launch
import proofs.«101416_j65987877536243_1_alg».proof.Proof.Gen.KernelIdeal.Points
import proofs.«101416_j65987877536243_1_alg».proof.Proof.Gen.KernelIdeal.Frame
import proofs.«101416_j65987877536243_1_alg».proof.Proof.Gen.ReferenceIdeal
import proofs.«101416_j65987877536243_1_alg».proof.Proof.Gen.Pre_finite_inputs
import proofs.«101416_j65987877536243_1_alg».proof.Proof.Gen.ReferenceIdeal.Run
import proofs.«101416_j65987877536243_1_alg».proof.Proof.Gen.ReferenceIdeal.Read
import proofs.«101416_j65987877536243_1_alg».proof.Proof.KernelRun
import proofs.«101416_j65987877536243_1_alg».proof.Proof.Region0
import proofs.«101416_j65987877536243_1_alg».proof.Proof.Region1
import proofs.«101416_j65987877536243_1_alg».proof.Proof.Region2
import proofs.«101416_j65987877536243_1_alg».proof.Proof.Chain
import proofs.«101416_j65987877536243_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.GraphConv

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the graph convolution of the (agreeing) arguments in their result. -/
theorem algebraic : Cert.algebraic_KernelIdeal_ReferenceIdeal := by
  intro m ρ m' ρ' _ hagree
  refine ⟨fun c => gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (kernel_value m ρ region0_array region1_array region2_array c), (h c).2⟩)
      (kernel_run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, -, -, a5, a6, a7, a8, a9, a10⟩ := hagree c
    rw [Cert.ReferenceIdeal.Read.val_main_v94_eq, ref_value, a0, a1, a2, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
